-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x1024 : Shape := ⟨2, ![1024, 1024]⟩
abbrev S1024 : Shape := ⟨1, ![1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S8x2048x1024 .f32) (main_arg1 : FVec F S1024x1024 .f32) (main_arg2 : FVec F S1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S8x2048x1024 : Shape := ⟨3, ![8, 2048, 1024]⟩
abbrev S1024x1024 : Shape := ⟨2, ![1024, 1024]⟩
abbrev S1024 : Shape := ⟨1, ![1024]⟩
abbrev S1x1024 : Shape := ⟨2, ![1, 1024]⟩
abbrev S8x2048x2048 : Shape := ⟨3, ![8, 2048, 2048]⟩
abbrev S1x2048x1024 : Shape := ⟨3, ![1, 2048, 1024]⟩
abbrev S1x256x1024 : Shape := ⟨3, ![1, 256, 1024]⟩
abbrev S1x256x2048 : Shape := ⟨3, ![1, 256, 2048]⟩
abbrev S2048x1024 : Shape := ⟨2, ![2048, 1024]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 9
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024, .f32⟩
  | .hbm, ⟨3, _⟩ => ⟨S8x2048x1024, .bf16⟩
  | .hbm, ⟨4, _⟩ => ⟨S1024x1024, .bf16⟩
  | .hbm, ⟨5, _⟩ => ⟨S1x1024, .f32⟩
  | .hbm, ⟨6, _⟩ => ⟨S8x2048x1024, .f32⟩
  | .hbm, ⟨7, _⟩ => ⟨S8x2048x2048, .f32⟩
  | .local _ .vmem, ⟨0, _⟩ => ⟨S1x2048x1024, .bf16⟩
  | .local _ .vmem, ⟨1, _⟩ => ⟨S1x2048x1024, .bf16⟩
  | .local _ .vmem, ⟨2, _⟩ => ⟨S1024x1024, .bf16⟩
  | .local _ .vmem, ⟨3, _⟩ => ⟨S1x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x2048, .f32⟩
  | .local _ .vmem, ⟨7, _⟩ => ⟨S1x256x2048, .f32⟩
  | .local _ .vmem, ⟨8, _⟩ => ⟨S2048x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c256_i32 : BitVec 32 := 256#32
  let v3 : BitVec 32 := Scalar.muli arg1 c256_i32
  v3
def k0_off1 (i : grid0.Coords) : Fin 3 → Nat :=
  let c0 : Index := 0#32
  let arg1 : BitVec 32 := BitVec.ofNat 32 (i 1).val
  let c256_i32 : BitVec 32 := 256#32
  let v3 : BitVec 32 := Scalar.muli arg1 c256_i32
  let v4 : BitVec 32 := v3
  let v5 : Index := Scalar.indexCast v4
  let c0_1 : Index := 0#32
  ![0, v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bitsLt_bf16_f32 : FTy.bits .bf16 < FTy.bits .f32
  shapeCasts_S1024_S1x1024 : S1024.ShapeCasts S1x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  packedbf16_S2048x1024_S2048x1024_0_0 : (Rect.unit (s := S2048x1024) ![0, 0] S2048x1024.size inb_S2048x1024_S2048x1024_0_0).PackedRows (EltTy.packing .bf16)
  h_S1x256x1024 : 0 < S1x256x1024.numel
  shapeCasts_S1x256x1024_S256x1024 : S1x256x1024.ShapeCasts S256x1024
  reduces_S256x2048_S256 : S256x2048.Reduces [1] S256
  shapeCasts_S256_S256x1 : S256.ShapeCasts S256x1
  broadcasts_S256x1_S256x2048 : S256x1.Broadcasts S256x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  inb_S1x256x1024_S1x256x1024_0_0_0 : ∀ a, (![0, 0, 0] : Fin 3 → Nat) a + S1x256x1024.size a ≤ S1x256x1024.size a
  shapeCasts_S256x1024_S1x256x1024 : S256x1024.ShapeCasts S1x256x1024
  dot_S2048x1024_S1024x1024_S2048x1024_1_1_0_0_n_n_wf : DotDims.WF S2048x1024 S1024x1024 S2048x1024 [1] [1] [0] [0] [] []
  dot_S256x1024_S2048x1024_S256x2048_1_1_0_0_n_n_wf : DotDims.WF S256x1024 S2048x1024 S256x2048 [1] [1] [0] [0] [] []
  dot_S256x2048_S2048x1024_S256x1024_1_0_0_1_n_n_wf : DotDims.WF S256x2048 S2048x1024 S256x1024 [1] [0] [0] [1] [] []
  hrank0 : 0 < grid0.rank
  k0_mult1_dvd : ∀ i : grid0.Coords, 256 ∣ (k0_mult1 i).toNat
  k0_off1_inb : ∀ i : grid0.Coords, ∀ a, (k0_off1 i) a + S1x256x1024.size a ≤ S1x2048x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S8x2048x1024.size a
  hwx0_0 : ∀ i : grid0.Coords, EltTy.bits .bf16 = 32 ∨ (Rect.block (s := S8x2048x1024) S1x2048x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x1024.size a ≤ S8x2048x1024.size a
  hwx0_3 : ∀ i : grid0.Coords, EltTy.bits .f32 = 32 ∨ (Rect.block (s := S8x2048x1024) S1x256x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x2048.size a ≤ S8x2048x2048.size a
  hwx0_4 : ∀ i : grid0.Coords, EltTy.bits .f32 = 32 ∨ (Rect.block (s := S8x2048x2048) S1x256x2048.size (cc0_transform_4 i) (hinb0_4 i)).WholeWords (EltTy.packing .f32)

variable [Facts₀]

def dot_S2048x1024_S1024x1024_S2048x1024_1_1_0_0_n_n : DotDims S2048x1024 S1024x1024 S2048x1024 where
  lhsContracting := [1]
  rhsContracting := [1]
  lhsNonContracting := [0]
  rhsNonContracting := [0]
  lhsBatch := []
  rhsBatch := []
  wf := dot_S2048x1024_S1024x1024_S2048x1024_1_1_0_0_n_n_wf
def dot_S256x1024_S2048x1024_S256x2048_1_1_0_0_n_n : DotDims S256x1024 S2048x1024 S256x2048 where
  lhsContracting := [1]
  rhsContracting := [1]
  lhsNonContracting := [0]
  rhsNonContracting := [0]
  lhsBatch := []
  rhsBatch := []
  wf := dot_S256x1024_S2048x1024_S256x2048_1_1_0_0_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_v0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S1x256x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S1x256x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x2048x1024 : Shape := ⟨3, ![8, 2048, 1024]⟩
abbrev S1024x1024 : Shape := ⟨2, ![1024, 1024]⟩
abbrev S1024 : Shape := ⟨1, ![1024]⟩
abbrev S1x1x1024 : Shape := ⟨3, ![1, 1, 1024]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 23
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024, .f32⟩
  | .hbm, ⟨3, _⟩ => ⟨S8x2048x1024, .f32⟩
  | .hbm, ⟨4, _⟩ => ⟨S1x1x1024, .f32⟩
  | .hbm, ⟨5, _⟩ => ⟨S8x2048x1024, .f32⟩
  | .hbm, ⟨6, _⟩ => ⟨S8x2048x1024, .f32⟩
  | .hbm, ⟨7, _⟩ => ⟨S8x2048x2048, .f32⟩
  | .hbm, ⟨8, _⟩ => ⟨S_, .f32⟩
  | .hbm, ⟨9, _⟩ => ⟨S8x2048, .f32⟩
  | .hbm, ⟨10, _⟩ => ⟨S_, .f32⟩
  | .hbm, ⟨11, _⟩ => ⟨S8x2048, .f32⟩
  | .hbm, ⟨12, _⟩ => ⟨S8x2048, .f32⟩
  | .hbm, ⟨13, _⟩ => ⟨S8x2048x1, .f32⟩
  | .hbm, ⟨14, _⟩ => ⟨S8x2048x2048, .f32⟩
  | .hbm, ⟨15, _⟩ => ⟨S8x2048x2048, .f32⟩
  | .hbm, ⟨16, _⟩ => ⟨S8x2048x2048, .f32⟩
  | .hbm, ⟨17, _⟩ => ⟨S_, .f32⟩
  | .hbm, ⟨18, _⟩ => ⟨S8x2048, .f32⟩
  | .hbm, ⟨19, _⟩ => ⟨S8x2048x1, .f32⟩
  | .hbm, ⟨20, _⟩ => ⟨S8x2048x2048, .f32⟩
  | .hbm, ⟨21, _⟩ => ⟨S8x2048x2048, .f32⟩
  | .hbm, ⟨22, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S8x2048x1024_0_1_2 : S1x1x1024.BroadcastsInDim S8x2048x1024 (![0, 1, 2] : Fin 3 → Fin S8x2048x1024.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x1024_S1024x1024_S8x2048x1024_2_1_01_0_n_n_wf : DotDims.WF S8x2048x1024 S1024x1024 S8x2048x1024 [2] [1] [0, 1] [0] [] []
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]

variable [Facts₀]

def dot_S8x2048x1024_S1024x1024_S8x2048x1024_2_1_01_0_n_n : DotDims S8x2048x1024 S1024x1024 S8x2048x1024 where
  lhsContracting := [2]
  rhsContracting := [1]
  lhsNonContracting := [0, 1]
  rhsNonContracting := [0]
  lhsBatch := []
  rhsBatch := []
  wf := dot_S8x2048x1024_S1024x1024_S8x2048x1024_2_1_01_0_n_n_wf
def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf

class Facts : Prop extends Facts₀ where

variable [Facts]
-- ==== Proof.Spec.lean ====
/-
  The specification. For each of the 8 batches, with x the batch's 2048 rows of 1024 features:
    proj  = x · Wᵀ + bias                      (an affine map of each row, W indexed [out, in])
    score = x · projᵀ                          (every row against every projected row)
    attn  = softmax of each row of score       (exp (s − row max) divided by the row's sum of those)
    ctx   = attn · x
  stated over the extended reals, index by index, as functions of the three argument arrays read by
  coordinates. Both programs are shown to compute exactly these two functions (attn and ctx); nothing is
  assumed about finiteness, because the two sides agree operation by operation and no algebraic law
  beyond "the maximum with −∞ is the other operand" and "0 + s = s" is used.
-/
import Idealize.ShloMosaic.PureOps.Ideal
import Idealize.ShloMosaic.PureOps.Ideal.Laws
import Idealize.ShloMosaic.Lib.ValueIdx

noncomputable section

namespace Cert.Attn

open Idealize.ShloMosaic

/-- −∞, as the f32 pattern both programs start a row maximum from. -/
abbrev negInf : EReal := Ideal.ofBits .f32 0xFF800000#32

/-- The maximum of −∞ with anything is that thing. -/
theorem max_negInf (y : EReal) : max negInf y = y := by
  show max (Ideal.ofBits .f32 0xFF800000#32) y = y
  simp [Ideal.ofBits, Ideal.ieee]

/-- The affine projection of row `s` of batch `b`, at output feature `e`: the row against row `e` of `W`, plus the bias. -/
def proj (X : Fin 8 → Fin 2048 → Fin 1024 → EReal) (W : Fin 1024 → Fin 1024 → EReal) (B : Fin 1024 → EReal)
    (b : Fin 8) (s : Fin 2048) (e : Fin 1024) : EReal :=
  (∑ d : Fin 1024, X b s d * W e d) + B e

/-- The score of query row `i` against key row `j` of one batch, for any keys `K` (the projected rows). -/
def scoreOf (Q : Fin 1024 → EReal) (K : Fin 2048 → Fin 1024 → EReal) (j : Fin 2048) : EReal :=
  ∑ d : Fin 1024, Q d * K j d

/-- The maximum of a row of 2048 scores, folded from −∞. -/
def rowMax (f : Fin 2048 → EReal) : EReal := (Finset.univ : Finset (Fin 2048)).fold max negInf f

/-- The softmax of a row of 2048 scores at position `j`: shifted by the row maximum, exponentiated, normalized by the sum. -/
def softmaxRow (f : Fin 2048 → EReal) (j : Fin 2048) : EReal :=
  Ideal.div (Ideal.exp (f j - rowMax f)) (∑ k : Fin 2048, Ideal.exp (f k - rowMax f))

/-- The attention weight of query row `i` on key row `j` in batch `b`. -/
def attn (X : Fin 8 → Fin 2048 → Fin 1024 → EReal) (W : Fin 1024 → Fin 1024 → EReal) (B : Fin 1024 → EReal)
    (b : Fin 8) (i j : Fin 2048) : EReal :=
  softmaxRow (scoreOf (X b i) (proj X W B b)) j

/-- The context vector of query row `i` in batch `b`, at feature `d`: the attention-weighted sum of the batch's rows. -/
def ctx (X : Fin 8 → Fin 2048 → Fin 1024 → EReal) (W : Fin 1024 → Fin 1024 → EReal) (B : Fin 1024 → EReal)
    (b : Fin 8) (i : Fin 2048) (d : Fin 1024) : EReal :=
  ∑ j : Fin 2048, attn X W B b i j * X b j d

/-! ## The argument arrays read by coordinates, and the two results as whole arrays -/

/-- The rows array `[8, 2048, 1024]` by (batch, row, feature). -/
abbrev rows (x : (⟨3, ![8, 2048, 1024]⟩ : Shape).Idx → EReal) : Fin 8 → Fin 2048 → Fin 1024 → EReal :=
  fun b s d => x (ValueIdx.ix3 b s d)
/-- The weight matrix `[1024, 1024]` by (output feature, input feature). -/
abbrev weights (w : (⟨2, ![1024, 1024]⟩ : Shape).Idx → EReal) : Fin 1024 → Fin 1024 → EReal :=
  fun e d => w (ValueIdx.ix2 e d)
/-- The bias vector `[1024]` by output feature. -/
abbrev biases (v : (⟨1, ![1024]⟩ : Shape).Idx → EReal) : Fin 1024 → EReal := fun e => v (ValueIdx.ix1 e)

/-- The attention weights as one `[8, 2048, 2048]` array of the three argument arrays. -/
def attnArr (x : (⟨3, ![8, 2048, 1024]⟩ : Shape).Idx → EReal) (w : (⟨2, ![1024, 1024]⟩ : Shape).Idx → EReal)
    (v : (⟨1, ![1024]⟩ : Shape).Idx → EReal) : (⟨3, ![8, 2048, 2048]⟩ : Shape).Idx → EReal :=
  fun i => attn (rows x) (weights w) (biases v) (i 0) (i 1) (i 2)

/-- The context vectors as one `[8, 2048, 1024]` array of the three argument arrays. -/
def ctxArr (x : (⟨3, ![8, 2048, 1024]⟩ : Shape).Idx → EReal) (w : (⟨2, ![1024, 1024]⟩ : Shape).Idx → EReal)
    (v : (⟨1, ![1024]⟩ : Shape).Idx → EReal) : (⟨3, ![8, 2048, 1024]⟩ : Shape).Idx → EReal :=
  fun i => ctx (rows x) (weights w) (biases v) (i 0) (i 1) (i 2)

end Cert.Attn

end
-- ==== Proof.RefStages.lean ====
/-
  The reference computes the specification. Stage by stage, at coordinates:
  the first contraction plus the broadcast bias is `proj`; the batched contraction of the rows with the projected rows is
  the score; the row-wise maximum reduction (folded from −∞, then joined once more with −∞, which changes nothing) is `rowMax`;
  the shifted exponentials over their row sum (started from 0) are the softmax; and the last batched contraction is `ctx`.
-/
import proofs.«138561_j14353780703904_2_alg».proof.Proof.Gen.ReferenceIdeal.Read
import proofs.«138561_j14353780703904_2_alg».proof.Proof.Spec
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open Cert.Attn

variable (x0 : (⟨S8x2048x1024, .f32⟩ : BufTy).Contents (Elt Ideal)) (x1 : (⟨S1024x1024, .f32⟩ : BufTy).Contents (Elt Ideal))
  (x2 : (⟨S1024, .f32⟩ : BufTy).Contents (Elt Ideal))

/-- The projection stage at (batch, row, feature). -/
theorem proj_stage (b : Fin 8) (s : Fin 2048) (e : Fin 1024) :
    val_main_v3 (F := Ideal) x0 x1 x2 (ix3 b s e) = proj (rows x0) (weights x1) (biases x2) b s e := by
  rw [val_main_v3_apply, val_main_v0_apply, val_main_v2_apply, val_main_v1_apply]
  have el : ∀ d : Fin 1024, lidx_main_v0 (ix3 b s e) d = ix3 b s d := fun d =>
    funext fun a => by match a with | ⟨0, _⟩ => rfl | ⟨1, _⟩ => rfl | ⟨2, _⟩ => rfl
  have er : ∀ d : Fin 1024, ridx_main_v0 (ix3 b s e) d = ix2 e d := fun d =>
    funext fun a => by match a with | ⟨0, _⟩ => rfl | ⟨1, _⟩ => rfl
  have eb : idx_main_v1 (idx_main_v2 (ix3 b s e)) = ix1 e :=
    funext fun a => by match a with | ⟨0, _⟩ => rfl
  simp only [el, er, eb]
  rfl

/-- The score stage at (batch, query row, key row). -/
theorem score_stage (b : Fin 8) (i j : Fin 2048) :
    val_main_v4 (F := Ideal) x0 x1 x2 (ix3 b i j)
      = scoreOf (rows x0 b i) (proj (rows x0) (weights x1) (biases x2) b) j := by
  rw [val_main_v4_apply]
  unfold scoreOf
  refine Finset.sum_congr rfl fun d _ => ?_
  have e : ridx_main_v4 (ix3 b i j) d = ix3 b j d :=
    funext fun a => by match a with | ⟨0, _⟩ => rfl | ⟨1, _⟩ => rfl | ⟨2, _⟩ => rfl
  have el : lidx_main_v4 (ix3 b i j) d = ix3 b i d :=
    funext fun a => by match a with | ⟨0, _⟩ => rfl | ⟨1, _⟩ => rfl | ⟨2, _⟩ => rfl
  rw [e, el, proj_stage]

/-- A reduced index (batch, row) with the key coordinate put back is (batch, row, key). -/
theorem lift_key (h : S8x2048x2048.Reduces [2] S8x2048) (b : Fin 8) (i : Fin 2048) (k : Fin (S8x2048x2048.size 2)) :
    h.lift (ix2 b i) k = ix3 b i (⟨k.val, k.isLt⟩ : Fin 2048) := by
  funext c; apply Fin.ext
  fin_cases c <;> rfl

/-- The row-maximum stage at (batch, row): the reduction folds the row's scores from −∞, and the later join with a
    broadcast −∞ leaves it as it is. -/
theorem rowmax_stage (b : Fin 8) (i : Fin 2048) :
    val_main_v7 (F := Ideal) x0 x1 x2 (ix2 b i)
      = rowMax (scoreOf (rows x0 b i) (proj (rows x0) (weights x1) (biases x2) b)) := by
  rw [val_main_v7_apply, val_main_v6_apply, val_main_cst_0_apply]
  show max negInf (val_main_v5 (F := Ideal) x0 x1 x2 (ix2 b i)) = _
  rw [max_negInf]
  unfold val_main_v5
  have h : S8x2048x2048.Reduces [2] S8x2048 := by decide
  refine (Host.reduce_eq_fold_single FloatOps.maximumf _ _ reducesTo_S8x2048x2048_S8x2048_d2 h h_S_ (ix2 b i)).trans ?_
  have hf : (val_main_v4 (F := Ideal) x0 x1 x2 ∘ h.lift (ix2 b i))
      = scoreOf (rows x0 b i) (proj (rows x0) (weights x1) (biases x2) b) :=
    funext fun k => by rw [Function.comp, lift_key, score_stage]; rfl
  exact congrArg (fun f => Finset.fold max negInf f (Finset.univ : Finset (Fin 2048))) hf

/-- The exponential stage at (batch, query row, key row): the score shifted by its row's maximum, exponentiated. -/
theorem expo_stage (b : Fin 8) (i j : Fin 2048) :
    val_main_v11 (F := Ideal) x0 x1 x2 (ix3 b i j)
      = Ideal.exp (scoreOf (rows x0 b i) (proj (rows x0) (weights x1) (biases x2) b) j
          - rowMax (scoreOf (rows x0 b i) (proj (rows x0) (weights x1) (biases x2) b))) := by
  rw [val_main_v11_apply, val_main_v10_apply, val_main_v9_apply, val_main_v8_apply]
  have e : idx_main_v8 (idx_main_v9 (ix3 b i j)) = ix2 b i :=
    funext fun a => by match a with | ⟨0, _⟩ => rfl | ⟨1, _⟩ => rfl
  rw [e, rowmax_stage, score_stage]
  rfl

/-- The row-sum stage at (batch, row): from 0, the sum of the row's shifted exponentials. -/
theorem denom_stage (b : Fin 8) (i : Fin 2048) :
    val_main_v12 (F := Ideal) x0 x1 x2 (ix2 b i)
      = ∑ k : Fin 2048, Ideal.exp (scoreOf (rows x0 b i) (proj (rows x0) (weights x1) (biases x2) b) k
          - rowMax (scoreOf (rows x0 b i) (proj (rows x0) (weights x1) (biases x2) b))) := by
  rw [val_main_v12_apply, val_main_cst_1_apply]
  show Ideal.ofBits .f32 0x00000000#32 + _ = _
  rw [Ideal.ofBits_zero_f32, zero_add]
  refine Finset.sum_congr rfl fun k _ => ?_
  have e : idx_main_v12 (ix2 b i) k = ix3 b i k :=
    funext fun a => by match a with | ⟨0, _⟩ => rfl | ⟨1, _⟩ => rfl | ⟨2, _⟩ => rfl
  rw [e, expo_stage]

/-- The softmax stage at (batch, query row, key row). -/
theorem attn_stage (b : Fin 8) (i j : Fin 2048) :
    val_main_v15 (F := Ideal) x0 x1 x2 (ix3 b i j) = attn (rows x0) (weights x1) (biases x2) b i j := by
  rw [val_main_v15_apply, val_main_v14_apply, val_main_v13_apply]
  have e : idx_main_v13 (idx_main_v14 (ix3 b i j)) = ix2 b i :=
    funext fun a => by match a with | ⟨0, _⟩ => rfl | ⟨1, _⟩ => rfl
  rw [e, denom_stage, expo_stage]
  rfl

/-- The context stage at (batch, query row, feature). -/
theorem ctx_stage (b : Fin 8) (i : Fin 2048) (d : Fin 1024) :
    val_main_v16 (F := Ideal) x0 x1 x2 (ix3 b i d) = ctx (rows x0) (weights x1) (biases x2) b i d := by
  rw [val_main_v16_apply]
  unfold ctx
  refine Finset.sum_congr rfl fun j _ => ?_
  have el : lidx_main_v16 (ix3 b i d) j = ix3 b i j :=
    funext fun a => by match a with | ⟨0, _⟩ => rfl | ⟨1, _⟩ => rfl | ⟨2, _⟩ => rfl
  have er : ridx_main_v16 (ix3 b i d) j = ix3 b j d :=
    funext fun a => by match a with | ⟨0, _⟩ => rfl | ⟨1, _⟩ => rfl | ⟨2, _⟩ => rfl
  rw [el, er, attn_stage]

/-- The reference's second result, whole: the attention weights of the specification. -/
theorem attn_result : val_main_v15 (F := Ideal) x0 x1 x2 = attnArr x0 x1 x2 := by
  funext i
  obtain ⟨b, p, q, rfl⟩ : ∃ (b : Fin 8) (p q : Fin 2048), i = ix3 b p q := ⟨i 0, i 1, i 2, eq_ix3 i⟩
  exact attn_stage x0 x1 x2 b p q

/-- The reference's first result, whole: the context vectors of the specification. -/
theorem ctx_result : val_main_v16 (F := Ideal) x0 x1 x2 = ctxArr x0 x1 x2 := by
  funext i
  obtain ⟨b, p, d, rfl⟩ : ∃ (b : Fin 8) (p : Fin 2048) (d : Fin 1024), i = ix3 b p d := ⟨i 0, i 1, i 2, eq_ix3 i⟩
  exact ctx_stage x0 x1 x2 b p d

end Cert.ReferenceIdeal.RefValue

end
-- ==== Proof.Blocks.lean ====
/-
  Where the grid points sit and what the input blocks hold. Point `t` of the 64 is batch `t / 8`, query tile `t % 8`.
  The three staged arrays are the arguments themselves over the extended reals: the two casts to the narrower float
  format are the identity there, and the bias is re-laid as one row. So the first window's block at point `t` is
  batch `t / 8`'s rows, the second is the whole weight matrix, and the third the bias row.
-/
import proofs.«138561_j14353780703904_2_alg».proof.Proof.Gen.KernelIdeal.Frame
import proofs.«138561_j14353780703904_2_alg».proof.Proof.Spec
import Idealize.ShloMosaic.Lib.Pipeline.Value
import Idealize.ShloMosaic.Lib.StableHlo.Run
import Idealize.ShloMosaic.Lib.ValueIdx
import Idealize.ShloMosaic.Lib.ValueLayout

noncomputable section

namespace Cert.KernelIdeal.Body

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ) (c : Dev nD)

/-- The grid runs batch-major: point `t` has coordinates (`t / 8`, `t % 8`). -/
theorem coords_facts : ∀ t : Fin cfg0.N, (grid0.coords t 0).val = t.val / 8 ∧ (grid0.coords t 1).val = t.val % 8 :=
  (by decide +kernel : ∀ t : Fin grid0.N, _)

/-- The input windows' block indices: the rows' window moves with the batch; the weights' and the bias's never move. -/
theorem in_facts : ∀ t : Fin cfg0.N, win0_0.index t (0 : Fin 3) = t.val / 8 ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The output windows' block indices: (batch, tile, 0) for both. -/
theorem out_facts : ∀ t : Fin cfg0.N, win0_3.index t (0 : Fin 3) = t.val / 8 ∧ win0_3.index t (1 : Fin 3) = t.val % 8 ∧ win0_3.index t (2 : Fin 3) = 0
    ∧ win0_4.index t (0 : Fin 3) = t.val / 8 ∧ win0_4.index t (1 : Fin 3) = t.val % 8 ∧ win0_4.index t (2 : Fin 3) = 0 :=
  (by decide +kernel : ∀ t : Fin grid0.N, _)

/-- The batch of a grid point. -/
def batchOf (t : Fin cfg0.N) : Fin 8 := ⟨t.val / 8, by have h := t.isLt; have hN : cfg0.N = 64 := N_0; omega⟩

/-- The rows array as the region finds it: the rows argument (the cast is the identity on the extended reals). -/
theorem entry_rows (i : S8x2048x1024.Idx) : V m c main_v0 i = m ((c : Thread nD τ).loc main_arg0) i := by
  have e : @Eq (S8x2048x1024.Idx → EReal) (V m c main_v0)
      (truncf (F := Ideal) (s := S8x2048x1024) (φ := .f32) .bf16 (m ((c : Thread nD τ).loc main_arg0)) Facts₀.bitsLt_bf16_f32) := by
    dsimp only [V, hostOps0]; after_results
  rw [e]; rfl

/-- The weights array as the region finds it: the weights argument. -/
theorem entry_weights (i : S1024x1024.Idx) : V m c main_v1 i = m ((c : Thread nD τ).loc main_arg1) i := by
  have e : @Eq (S1024x1024.Idx → EReal) (V m c main_v1)
      (truncf (F := Ideal) (s := S1024x1024) (φ := .f32) .bf16 (m ((c : Thread nD τ).loc main_arg1)) Facts₀.bitsLt_bf16_f32) := by
    dsimp only [V, hostOps0]; after_results
  rw [e]; rfl

/-- The bias row as the region finds it: the bias argument re-laid as `[1, 1024]`. -/
theorem entry_bias (u : Fin 1) (e : Fin 1024) : V m c main_v2 (ix2 u e) = m ((c : Thread nD τ).loc main_arg2) (ix1 e) := by
  have h : @Eq (S1x1024.Idx → EReal) (V m c main_v2)
      (shapeCast (s := S1024) (α := EReal) S1x1024 (m ((c : Thread nD τ).loc main_arg2)) Facts₀.shapeCasts_S1024_S1x1024) := by
    dsimp only [V, hostOps0]; after_results; rfl
  rw [h, shapeCast_a_1a_apply]

/-- The rows' block at point `t`: batch `t / 8`'s rows. -/
theorem rows_block (t : Fin cfg0.N) (u : Fin 1) (s : Fin 2048) (d : Fin 1024) :
    (iblk m c 0 t : FVec Ideal S1x2048x1024 .bf16) (ix3 u s d)
      = m ((c : Thread nD τ).loc main_arg0) (ix3 (batchOf t) s d) := by
  show V m c main_v0 (((cfg0.win 0).blk t).view.emb (ix3 u s d)) = _
  rw [entry_rows]
  refine congrArg _ (funext fun a => Fin.ext ?_)
  obtain ⟨e0, e1, e2, -⟩ := in_facts t
  match a with
  | ⟨0, _⟩ => show win0_0.index t (0 : Fin 3) * 1 + 1 * u.val = t.val / 8; omega
  | ⟨1, _⟩ => show win0_0.index t (1 : Fin 3) * 2048 + 1 * s.val = s.val; omega
  | ⟨2, _⟩ => show win0_0.index t (2 : Fin 3) * 1024 + 1 * d.val = d.val; omega

/-- The weights' block at any point: the whole matrix. -/
theorem weights_block (t : Fin cfg0.N) (e d : Fin 1024) :
    (iblk m c 1 t : FVec Ideal S1024x1024 .bf16) (ix2 e d) = m ((c : Thread nD τ).loc main_arg1) (ix2 e d) := by
  show V m c main_v1 (((cfg0.win 1).blk t).view.emb (ix2 e d)) = _
  rw [entry_weights]
  refine congrArg _ (funext fun a => Fin.ext ?_)
  obtain ⟨-, -, -, e0, e1, -⟩ := in_facts t
  match a with
  | ⟨0, _⟩ => show win0_1.index t (0 : Fin 2) * 1024 + 1 * e.val = e.val; omega
  | ⟨1, _⟩ => show win0_1.index t (1 : Fin 2) * 1024 + 1 * d.val = d.val; omega

/-- The bias's block at any point: the whole row. -/
theorem bias_block (t : Fin cfg0.N) (u : Fin 1) (e : Fin 1024) :
    (iblk m c 2 t : FVec Ideal S1x1024 .f32) (ix2 u e) = m ((c : Thread nD τ).loc main_arg2) (ix1 e) := by
  show V m c main_v2 (((cfg0.win 2).blk t).view.emb (ix2 u e)) = _
  have hi : ((cfg0.win 2).blk t).view.emb (ix2 u e) = ix2 u e := by
    funext a; apply Fin.ext
    obtain ⟨-, -, -, -, -, e0, e1⟩ := in_facts t
    match a with
    | ⟨0, _⟩ => show win0_2.index t (0 : Fin 2) * 1 + 1 * u.val = u.val; omega
    | ⟨1, _⟩ => show win0_2.index t (1 : Fin 2) * 1024 + 1 * e.val = e.val; omega
  rw [hi, entry_bias]

end Cert.KernelIdeal.Body

end
-- ==== Proof.LibColumn.lean ====
/-
  Two layout operations read at an index, for a per-row quantity kept as a column (a reduction over the last axis
  with the reduced axis kept as a unit axis): a vector of `a` entries cast to the column `[a, 1]`, and a column
  `[a, 1]` broadcast along its unit axis to `[a, b]`. Both are instances of the general readings of a shape cast
  (same row-major position) and of a broadcast (coordinate 0 on the operand's unit axes).
-/
import Idealize.ShloMosaic.Lib.Pipeline.Value
import Idealize.ShloMosaic.Lib.ValueIdx

namespace Cert.LibColumn

open Idealize.ShloMosaic Idealize.ShloMosaic.ValueIdx

variable {α : Type}

/-- A vector `[a]` cast to the column `[a, 1]` reads, at `(i, u)`, the vector at `i`, whatever the unit coordinate `u`:
    position `i · 1 + u = i` in both. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.Payload.lean ====
/-
  The body's arithmetic, read at an index over the extended reals.
  * The projection stored into the carried scratch: at (row s, feature e), the batch's row s against row e of the weights, plus the bias.
  * The softmax block: the 256 query rows against all 2048 projected rows, each row shifted by its maximum, exponentiated,
    and divided by the row's sum — per row exactly `softmaxRow` of the row's scores.
  * The two stored blocks: the softmax block itself (under a unit leading axis), and its product with the batch's rows.
  Every change of float format in the body is the identity on the extended reals, so none of them appears below.
-/
import proofs.«138561_j14353780703904_2_alg».proof.Proof.Gen.KernelIdeal.Skeleton
import proofs.«138561_j14353780703904_2_alg».proof.Proof.Spec
import proofs.«138561_j14353780703904_2_alg».proof.Proof.LibColumn
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx
open Cert.Attn Cert.LibColumn

/-! ## The three matrix products -/

/-- The left operand's kept axis carries the output's row coordinate. -/
theorem projDot_apply_lhs (i : S2048x1024.Idx) (c : dot_S2048x1024_S1024x1024_S2048x1024_1_1_0_0_n_n.contr.Idx) : (dot_S2048x1024_S1024x1024_S2048x1024_1_1_0_0_n_n.lhsIdx i c 0).val = (i 0).val := by
  unfold DotDims.lhsIdx
  rw [dif_neg (show ¬(0 : Fin S2048x1024.rank) ∈ dot_S2048x1024_S1024x1024_S2048x1024_1_1_0_0_n_n.lhsBatch by decide), dif_pos (show (0 : Fin S2048x1024.rank) ∈ dot_S2048x1024_S1024x1024_S2048x1024_1_1_0_0_n_n.lhsNonContracting by decide)]
  rfl
/-- The right operand's kept axis carries the output's column coordinate. -/
theorem projDot_apply_rhs (i : S2048x1024.Idx) (c : dot_S2048x1024_S1024x1024_S2048x1024_1_1_0_0_n_n.contr.Idx) : (dot_S2048x1024_S1024x1024_S2048x1024_1_1_0_0_n_n.rhsIdx i c 0).val = (i 1).val := by
  unfold DotDims.rhsIdx
  rw [dif_neg (show ¬(0 : Fin S1024x1024.rank) ∈ dot_S2048x1024_S1024x1024_S2048x1024_1_1_0_0_n_n.rhsBatch by decide), dif_pos (show (0 : Fin S1024x1024.rank) ∈ dot_S2048x1024_S1024x1024_S2048x1024_1_1_0_0_n_n.rhsNonContracting by decide)]
  rfl
/-- Rows times the transposed weights, into zero: entry (s, e) sums over the 1024 input features the row's entry times the weight row `e`'s. -/
theorem projDot_apply (lhs : FVec Ideal S2048x1024 .bf16) (rhs : FVec Ideal S1024x1024 .bf16) (p : Fin 2048) (q : Fin 1024) :
    matmul dot_S2048x1024_S1024x1024_S2048x1024_1_1_0_0_n_n none lhs rhs (constant (F := Ideal) S2048x1024 .f32 0x00000000#32) (ix2 p q)
      = ∑ k : Fin 1024, lhs (ix2 p k) * rhs (ix2 q k) := by
  simp only [matmul]
  rw [Ideal.matmul_constant_zero_apply, ← Equiv.sum_comp (contrEquiv1 dot_S2048x1024_S1024x1024_S2048x1024_1_1_0_0_n_n 1024 rfl rfl).symm]
  refine Finset.sum_congr rfl fun k _ => ?_
  have hk := contrEquiv1_symm_val dot_S2048x1024_S1024x1024_S2048x1024_1_1_0_0_n_n 1024 rfl rfl k
  have el : dot_S2048x1024_S1024x1024_S2048x1024_1_1_0_0_n_n.lhsIdx (ix2 p q) ((contrEquiv1 dot_S2048x1024_S1024x1024_S2048x1024_1_1_0_0_n_n 1024 rfl rfl).symm k) = ix2 p k := funext fun a => Fin.ext (by
    match a with
    | ⟨0, _⟩ => exact projDot_apply_lhs _ _
    | ⟨1, _⟩ => exact (dot_S2048x1024_S1024x1024_S2048x1024_1_1_0_0_n_n.lhsIdx_val_of_single rfl _ _).trans hk)
  have er : dot_S2048x1024_S1024x1024_S2048x1024_1_1_0_0_n_n.rhsIdx (ix2 p q) ((contrEquiv1 dot_S2048x1024_S1024x1024_S2048x1024_1_1_0_0_n_n 1024 rfl rfl).symm k) = ix2 q k := funext fun a => Fin.ext (by
    match a with
    | ⟨0, _⟩ => exact projDot_apply_rhs _ _
    | ⟨1, _⟩ => exact (dot_S2048x1024_S1024x1024_S2048x1024_1_1_0_0_n_n.rhsIdx_val_of_single rfl _ _).trans hk)
  rw [el, er]

/-- The left operand's kept axis carries the output's row coordinate. -/
theorem scoreDot_apply_lhs (i : S256x2048.Idx) (c : dot_S256x1024_S2048x1024_S256x2048_1_1_0_0_n_n.contr.Idx) : (dot_S256x1024_S2048x1024_S256x2048_1_1_0_0_n_n.lhsIdx i c 0).val = (i 0).val := by
  unfold DotDims.lhsIdx
  rw [dif_neg (show ¬(0 : Fin S256x1024.rank) ∈ dot_S256x1024_S2048x1024_S256x2048_1_1_0_0_n_n.lhsBatch by decide), dif_pos (show (0 : Fin S256x1024.rank) ∈ dot_S256x1024_S2048x1024_S256x2048_1_1_0_0_n_n.lhsNonContracting by decide)]
  rfl
/-- The right operand's kept axis carries the output's column coordinate. -/
theorem scoreDot_apply_rhs (i : S256x2048.Idx) (c : dot_S256x1024_S2048x1024_S256x2048_1_1_0_0_n_n.contr.Idx) : (dot_S256x1024_S2048x1024_S256x2048_1_1_0_0_n_n.rhsIdx i c 0).val = (i 1).val := by
  unfold DotDims.rhsIdx
  rw [dif_neg (show ¬(0 : Fin S2048x1024.rank) ∈ dot_S256x1024_S2048x1024_S256x2048_1_1_0_0_n_n.rhsBatch by decide), dif_pos (show (0 : Fin S2048x1024.rank) ∈ dot_S256x1024_S2048x1024_S256x2048_1_1_0_0_n_n.rhsNonContracting by decide)]
  rfl
/-- Query rows times the transposed keys, into zero: entry (r, j) sums over the 1024 features query row `r` times key row `j`. -/
theorem scoreDot_apply (lhs : FVec Ideal S256x1024 .bf16) (rhs : FVec Ideal S2048x1024 .bf16) (p : Fin 256) (q : Fin 2048) :
    matmul dot_S256x1024_S2048x1024_S256x2048_1_1_0_0_n_n none lhs rhs (constant (F := Ideal) S256x2048 .f32 0x00000000#32) (ix2 p q)
      = ∑ k : Fin 1024, lhs (ix2 p k) * rhs (ix2 q k) := by
  simp only [matmul]
  rw [Ideal.matmul_constant_zero_apply, ← Equiv.sum_comp (contrEquiv1 dot_S256x1024_S2048x1024_S256x2048_1_1_0_0_n_n 1024 rfl rfl).symm]
  refine Finset.sum_congr rfl fun k _ => ?_
  have hk := contrEquiv1_symm_val dot_S256x1024_S2048x1024_S256x2048_1_1_0_0_n_n 1024 rfl rfl k
  have el : dot_S256x1024_S2048x1024_S256x2048_1_1_0_0_n_n.lhsIdx (ix2 p q) ((contrEquiv1 dot_S256x1024_S2048x1024_S256x2048_1_1_0_0_n_n 1024 rfl rfl).symm k) = ix2 p k := funext fun a => Fin.ext (by
    match a with
    | ⟨0, _⟩ => exact scoreDot_apply_lhs _ _
    | ⟨1, _⟩ => exact (dot_S256x1024_S2048x1024_S256x2048_1_1_0_0_n_n.lhsIdx_val_of_single rfl _ _).trans hk)
  have er : dot_S256x1024_S2048x1024_S256x2048_1_1_0_0_n_n.rhsIdx (ix2 p q) ((contrEquiv1 dot_S256x1024_S2048x1024_S256x2048_1_1_0_0_n_n 1024 rfl rfl).symm k) = ix2 q k := funext fun a => Fin.ext (by
    match a with
    | ⟨0, _⟩ => exact scoreDot_apply_rhs _ _
    | ⟨1, _⟩ => exact (dot_S256x1024_S2048x1024_S256x2048_1_1_0_0_n_n.rhsIdx_val_of_single rfl _ _).trans hk)
  rw [el, er]

/-- The left operand's kept axis carries the output's row coordinate. -/
theorem ctxDot_apply_lhs (i : S256x1024.Idx) (c : dot_S256x2048_S2048x1024_S256x1024_1_0_0_1_n_n.contr.Idx) : (dot_S256x2048_S2048x1024_S256x1024_1_0_0_1_n_n.lhsIdx i c 0).val = (i 0).val := by
  unfold DotDims.lhsIdx
  rw [dif_neg (show ¬(0 : Fin S256x2048.rank) ∈ dot_S256x2048_S2048x1024_S256x1024_1_0_0_1_n_n.lhsBatch by decide), dif_pos (show (0 : Fin S256x2048.rank) ∈ dot_S256x2048_S2048x1024_S256x1024_1_0_0_1_n_n.lhsNonContracting by decide)]
  rfl
/-- The right operand's kept axis carries the output's column coordinate. -/
theorem ctxDot_apply_rhs (i : S256x1024.Idx) (c : dot_S256x2048_S2048x1024_S256x1024_1_0_0_1_n_n.contr.Idx) : (dot_S256x2048_S2048x1024_S256x1024_1_0_0_1_n_n.rhsIdx i c 1).val = (i 1).val := by
  unfold DotDims.rhsIdx
  rw [dif_neg (show ¬(1 : Fin S2048x1024.rank) ∈ dot_S256x2048_S2048x1024_S256x1024_1_0_0_1_n_n.rhsBatch by decide), dif_pos (show (1 : Fin S2048x1024.rank) ∈ dot_S256x2048_S2048x1024_S256x1024_1_0_0_1_n_n.rhsNonContracting by decide)]
  rfl
/-- Weights times values, into zero: entry (r, d) sums over the 2048 rows the weight on row `j` times row `j`'s feature `d`. -/
theorem ctxDot_apply (lhs : FVec Ideal S256x2048 .bf16) (rhs : FVec Ideal S2048x1024 .bf16) (p : Fin 256) (q : Fin 1024) :
    matmul dot_S256x2048_S2048x1024_S256x1024_1_0_0_1_n_n none lhs rhs (constant (F := Ideal) S256x1024 .f32 0x00000000#32) (ix2 p q)
      = ∑ k : Fin 2048, lhs (ix2 p k) * rhs (ix2 k q) := by
  simp only [matmul]
  rw [Ideal.matmul_constant_zero_apply, ← Equiv.sum_comp (contrEquiv1 dot_S256x2048_S2048x1024_S256x1024_1_0_0_1_n_n 2048 rfl rfl).symm]
  refine Finset.sum_congr rfl fun k _ => ?_
  have hk := contrEquiv1_symm_val dot_S256x2048_S2048x1024_S256x1024_1_0_0_1_n_n 2048 rfl rfl k
  have el : dot_S256x2048_S2048x1024_S256x1024_1_0_0_1_n_n.lhsIdx (ix2 p q) ((contrEquiv1 dot_S256x2048_S2048x1024_S256x1024_1_0_0_1_n_n 2048 rfl rfl).symm k) = ix2 p k := funext fun a => Fin.ext (by
    match a with
    | ⟨0, _⟩ => exact ctxDot_apply_lhs _ _
    | ⟨1, _⟩ => exact (dot_S256x2048_S2048x1024_S256x1024_1_0_0_1_n_n.lhsIdx_val_of_single rfl _ _).trans hk)
  have er : dot_S256x2048_S2048x1024_S256x1024_1_0_0_1_n_n.rhsIdx (ix2 p q) ((contrEquiv1 dot_S256x2048_S2048x1024_S256x1024_1_0_0_1_n_n 2048 rfl rfl).symm k) = ix2 k q := funext fun a => Fin.ext (by
    match a with
    | ⟨0, _⟩ => exact (dot_S256x2048_S2048x1024_S256x1024_1_0_0_1_n_n.rhsIdx_val_of_single rfl _ _).trans hk
    | ⟨1, _⟩ => exact ctxDot_apply_rhs _ _)
  rw [el, er]

/-! ## The projection payload -/

/-- What the first point of a batch stores into the scratch, at (row, feature). -/
theorem proj_payload (v29 : FVec Ideal S1x2048x1024 .bf16) (v31 : FVec Ideal S1024x1024 .bf16) (v34 : FVec Ideal S1x1024 .f32)
    (s : Fin 2048) (e : Fin 1024) :
    k0_pay1 (F := Ideal) v29 v31 v34 (ix2 s e)
      = (∑ d : Fin 1024, v29 (ix3 (0 : Fin 1) s d) * v31 (ix2 e d)) + v34 (ix2 (0 : Fin 1) e) := by
  unfold k0_pay1
  simp only [shapeCast_self]
  show matmul dot_S2048x1024_S1024x1024_S2048x1024_1_1_0_0_n_n none (shapeCast S2048x1024 v29 _) v31 (constant (F := Ideal) S2048x1024 .f32 0x00000000#32) (ix2 s e)
      + broadcastTo S2048x1024 v34 _ (ix2 s e) = _
  rw [projDot_apply, broadcastTo_1b_ab_apply]
  refine congrArg (· + _) (Finset.sum_congr rfl fun d _ => ?_)
  rw [shapeCast_1ab_ab_apply]

/-! ## The softmax block, step by step over any score block -/

/-- A reduced row index with the lane coordinate put back is (row, lane). -/
theorem lift_lane (h : S256x2048.Reduces [1] S256) (r : Fin 256) (k : Fin (S256x2048.size 1)) :
    h.lift (ix1 r) k = ix2 r (⟨k.val, k.isLt⟩ : Fin 2048) := by
  funext c; apply Fin.ext
  fin_cases c <;> rfl

/-- Each row's maximum, folded from −∞, kept as a column and spread back over the row. -/
def rowMaxBlk (sc : FVec Ideal S256x2048 .f32) : FVec Ideal S256x2048 .f32 :=
  broadcastTo S256x2048 (shapeCast S256x1 (multiReduction (F := Ideal) .maximumf [1] S256 sc 0xFF800000#32 Facts₀.reduces_S256x2048_S256 (.inl rfl) rfl)
    Facts₀.shapeCasts_S256_S256x1) Facts₀.broadcasts_S256x1_S256x2048

theorem rowMaxBlk_apply (sc : FVec Ideal S256x2048 .f32) (r : Fin 256) (j : Fin 2048) :
    rowMaxBlk sc (ix2 r j) = rowMax (fun k => sc (ix2 r k)) := by
  unfold rowMaxBlk
  rw [broadcastTo_a1_ab_apply, shapeCast_a_a1_apply]
  refine (Ideal.multiReduction_maximumf_single sc _ Facts₀.reduces_S256x2048_S256 _ _ (ix1 r)).trans ?_
  exact congrArg (fun f => Finset.fold max negInf f (Finset.univ : Finset (Fin 2048)))
    (funext fun k => congrArg sc (lift_lane _ r k))

/-- Each row's sum, kept as a column and spread back over the row. -/
def rowSumBlk (ex : FVec Ideal S256x2048 .f32) : FVec Ideal S256x2048 .f32 :=
  broadcastTo S256x2048 (shapeCast S256x1 (multiReduction (F := Ideal) .add [1] S256 ex 0x00000000#32 Facts₀.reduces_S256x2048_S256 (.inl rfl) rfl)
    Facts₀.shapeCasts_S256_S256x1) Facts₀.broadcasts_S256x1_S256x2048

theorem rowSumBlk_apply (ex : FVec Ideal S256x2048 .f32) (r : Fin 256) (j : Fin 2048) :
    rowSumBlk ex (ix2 r j) = ∑ k : Fin 2048, ex (ix2 r k) := by
  unfold rowSumBlk
  rw [broadcastTo_a1_ab_apply, shapeCast_a_a1_apply]
  refine (Ideal.multiReduction_add_single ex _ Facts₀.reduces_S256x2048_S256 _ _ (ix1 r)).trans ?_
  exact Finset.sum_congr rfl fun k _ => congrArg ex (lift_lane _ r k)

/-- The softmax of a score block, row by row, as the body spells it. -/
def softmaxBlk (sc : FVec Ideal S256x2048 .f32) : FVec Ideal S256x2048 .f32 :=
  divf (exp (subf sc (rowMaxBlk sc))) (rowSumBlk (exp (subf sc (rowMaxBlk sc))))

theorem softmaxBlk_apply (sc : FVec Ideal S256x2048 .f32) (r : Fin 256) (j : Fin 2048) :
    softmaxBlk sc (ix2 r j) = softmaxRow (fun k => sc (ix2 r k)) j := by
  unfold softmaxBlk softmaxRow
  show Ideal.div (Ideal.exp (sc (ix2 r j) - rowMaxBlk sc (ix2 r j))) (rowSumBlk (exp (subf sc (rowMaxBlk sc))) (ix2 r j)) = _
  rw [rowSumBlk_apply, rowMaxBlk_apply]
  refine congrArg _ (Finset.sum_congr rfl fun k _ => ?_)
  show Ideal.exp (sc (ix2 r k) - rowMaxBlk sc (ix2 r k)) = _
  rw [rowMaxBlk_apply]

/-- The score block of 256 query rows against the scratch's 2048 projected rows. -/
def scoresBlk (v6 : FVec Ideal S1x256x1024 .bf16) (v8 : FVec Ideal S2048x1024 .bf16) : FVec Ideal S256x2048 .f32 :=
  matmul dot_S256x1024_S2048x1024_S256x2048_1_1_0_0_n_n none (shapeCast S256x1024 v6 Facts₀.shapeCasts_S1x256x1024_S256x1024) v8 (constant (F := Ideal) S256x2048 .f32 0x00000000#32)

theorem scoresBlk_apply (v6 : FVec Ideal S1x256x1024 .bf16) (v8 : FVec Ideal S2048x1024 .bf16) (r : Fin 256) (j : Fin 2048) :
    scoresBlk v6 v8 (ix2 r j) = scoreOf (fun d => v6 (ix3 (0 : Fin 1) r d)) (fun k d => v8 (ix2 k d)) j := by
  unfold scoresBlk scoreOf
  rw [scoreDot_apply]
  refine Finset.sum_congr rfl fun d _ => ?_
  rw [shapeCast_1ab_ab_apply]

/-- The body's softmax payload is the softmax block of its score block. -/
theorem pay2_eq (v6 : FVec Ideal S1x256x1024 .bf16) (v8 : FVec Ideal S2048x1024 .bf16) :
    k0_pay2 (F := Ideal) v6 v8 = softmaxBlk (scoresBlk v6 v8) := rfl

/-- The softmax payload at (query row, key row). -/
theorem softmax_payload (v6 : FVec Ideal S1x256x1024 .bf16) (v8 : FVec Ideal S2048x1024 .bf16) (r : Fin 256) (j : Fin 2048) :
    k0_pay2 (F := Ideal) v6 v8 (ix2 r j)
      = softmaxRow (scoreOf (fun d => v6 (ix3 (0 : Fin 1) r d)) (fun k d => v8 (ix2 k d))) j := by
  rw [pay2_eq, softmaxBlk_apply]
  exact congrArg (fun f => softmaxRow f j) (funext fun k => scoresBlk_apply v6 v8 r k)

/-! ## The two stored blocks -/

/-- The attention block as stored: the softmax block under a unit leading axis. -/
theorem attn_payload (v6 : FVec Ideal S1x256x1024 .bf16) (v8 : FVec Ideal S2048x1024 .bf16) (u : Fin 1) (r : Fin 256) (j : Fin 2048) :
    k0_pay3 (F := Ideal) v6 v8 (ix3 u r j)
      = softmaxRow (scoreOf (fun d => v6 (ix3 (0 : Fin 1) r d)) (fun k d => v8 (ix2 k d))) j := by
  unfold k0_pay3
  show shapeCast S1x256x2048 (k0_pay2 (F := Ideal) v6 v8) _ (ix3 u r j) = _
  rw [shapeCast_ab_1ab_apply, softmax_payload]

/-- The context block as stored: the softmax block times the batch's rows, under a unit leading axis. -/
theorem ctx_payload (v6 : FVec Ideal S1x256x1024 .bf16) (v8 : FVec Ideal S2048x1024 .bf16) (v9 : FVec Ideal S1x2048x1024 .bf16)
    (u : Fin 1) (r : Fin 256) (d : Fin 1024) :
    k0_pay4 (F := Ideal) v6 v8 v9 (ix3 u r d)
      = ∑ j : Fin 2048, softmaxRow (scoreOf (fun d => v6 (ix3 (0 : Fin 1) r d)) (fun k d => v8 (ix2 k d))) j
          * v9 (ix3 (0 : Fin 1) j d) := by
  unfold k0_pay4
  show shapeCast S1x256x1024 (matmul dot_S256x2048_S2048x1024_S256x1024_1_0_0_1_n_n none (truncf .bf16 (k0_pay2 (F := Ideal) v6 v8) _)
      (shapeCast S2048x1024 v9 _) (constant (F := Ideal) S256x1024 .f32 0x00000000#32)) _ (ix3 u r d) = _
  rw [shapeCast_ab_1ab_apply, ctxDot_apply]
  refine Finset.sum_congr rfl fun j _ => ?_
  rw [shapeCast_1ab_ab_apply]
  show k0_pay2 (F := Ideal) v6 v8 (ix2 r j) * _ = _
  rw [softmax_payload]

end Cert.KernelIdeal.Body

end
-- ==== Proof.Pieces.lean ====
/-
  What each control case of the body leaves behind, as the body's arithmetic applied to the blocks it was handed.
  At a batch's first query tile the body stores the projection of the whole batch into the carried scratch, reads it
  straight back, and writes both outputs from it; at every other tile it reads the scratch as the previous tile left it.
  The query tile is the 256 rows of the batch's block starting at row 256 · (tile number).
-/
import proofs.«138561_j14353780703904_2_alg».proof.Proof.Gen.KernelIdeal.Frame
import Idealize.ShloMosaic.Lib.Pipeline.Value
import Idealize.ShloMosaic.Lib.Tactic

set_option maxRecDepth 16384

noncomputable section

namespace Cert.KernelIdeal.Body

open Cert.KernelIdeal Cert.KernelIdeal.Gen Idealize.ShloMosaic Idealize.ShloMosaic.TcCoe Idealize.ShloMosaic.Tactic Idealize.SL.Sem

variable {F : FTy → Type} [FloatOps F]

theorem zeros2 : (![0, 0] : Fin 2 → Nat) = fun _ => 0 := funext fun a => by fin_cases a <;> rfl
theorem zeros3 : (![0, 0, 0] : Fin 3 → Nat) = fun _ => 0 := funext fun a => by fin_cases a <;> rfl

/-- The query tile at grid point `i`: the 256 consecutive rows of the batch's block from the tile's first row. -/
def qtile (i : grid0.Coords) (x0 : Vec F S1x2048x1024 .bf16) : Vec F S1x256x1024 .bf16 :=
  View.ld x0 (Rect.unit (s := S1x2048x1024) (k0_off1 i) S1x256x1024.size (k0_off1_inb i))

/-- First tile of a batch: the scratch ends holding the projection of the batch's block. -/
theorem scratch_first (c : Dev nD) (i : grid0.Coords) (arg2 : Memref sig .tc .vmem S1x2048x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x256x1024 .f32) (harg5 : arg5.IsWhole) (arg6 : Memref sig .tc .vmem S1x256x2048 .f32) (harg6 : arg6.IsWhole) (arg7 : Memref sig .tc .vmem S2048x1024 .bf16) (harg7 : arg7.IsWhole) (hc0 : cond0_0 i)
    (x0 : Vec F S1x2048x1024 .bf16) (x1 : Vec F S1024x1024 .bf16) (x2 : Vec F S1x1024 .f32) :
    sout0_A_0 c i arg2 harg2 arg3 harg3 arg4 harg4 arg5 harg5 arg6 harg6 arg7 harg7 hc0 x0 x1 x2 = k0_pay1 x0 x1 x2 := by
  unfold sout0_A_0
  rw [View.read_writes_eq_canon _ _ _ (scover0_A_0 c i arg2 harg2 arg3 harg3 arg4 harg4 arg5 harg5 arg6 harg6 arg7 harg7 hc0 x0 x1 x2)]
  unfold kernelRun0_A
  dsimp only
  sl_unfold_words
  rw [View.canon_unit_zero zeros2]
  simp only [View.readAt_eq_ld, harg2.read_unread, harg3.read_unread, harg4.read_unread,
    View.ld_unit_zero (S := S1x2048x1024) zeros3, View.ld_unit_zero (S := S1024x1024) zeros2, View.ld_unit_zero (S := S1x1024) zeros2]

/-- First tile of a batch: the attention block comes from the query tile and the projection just stored. -/
theorem attn_first (c : Dev nD) (i : grid0.Coords) (arg2 : Memref sig .tc .vmem S1x2048x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x256x1024 .f32) (harg5 : arg5.IsWhole) (arg6 : Memref sig .tc .vmem S1x256x2048 .f32) (harg6 : arg6.IsWhole) (arg7 : Memref sig .tc .vmem S2048x1024 .bf16) (harg7 : arg7.IsWhole) (hc0 : cond0_0 i)
    (x0 : Vec F S1x2048x1024 .bf16) (x1 : Vec F S1024x1024 .bf16) (x2 : Vec F S1x1024 .f32) :
    out0_A_4 c i arg2 harg2 arg3 harg3 arg4 harg4 arg5 harg5 arg6 harg6 arg7 harg7 hc0 x0 x1 x2 = k0_pay3 (qtile i x0) (k0_pay1 x0 x1 x2) := by
  unfold out0_A_4
  rw [View.read_writes_eq_canon _ _ _ (cover0_A_4 c i arg2 harg2 arg3 harg3 arg4 harg4 arg5 harg5 arg6 harg6 arg7 harg7 hc0 x0 x1 x2)]
  unfold kernelRun0_A
  dsimp only
  sl_unfold_words
  rw [View.canon_unit_zero zeros3, View.readCov_unit_zero (S := S2048x1024) _ zeros2]
  simp only [View.readAt_eq_ld, harg2.read_unread, harg3.read_unread, harg4.read_unread,
    View.ld_unit_zero (S := S1x2048x1024) zeros3, View.ld_unit_zero (S := S1024x1024) zeros2, View.ld_unit_zero (S := S1x1024) zeros2]
  rfl

/-- First tile of a batch: the context block likewise, times the batch's block. -/
theorem ctx_first (c : Dev nD) (i : grid0.Coords) (arg2 : Memref sig .tc .vmem S1x2048x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x256x1024 .f32) (harg5 : arg5.IsWhole) (arg6 : Memref sig .tc .vmem S1x256x2048 .f32) (harg6 : arg6.IsWhole) (arg7 : Memref sig .tc .vmem S2048x1024 .bf16) (harg7 : arg7.IsWhole) (hc0 : cond0_0 i)
    (x0 : Vec F S1x2048x1024 .bf16) (x1 : Vec F S1024x1024 .bf16) (x2 : Vec F S1x1024 .f32) :
    out0_A_3 c i arg2 harg2 arg3 harg3 arg4 harg4 arg5 harg5 arg6 harg6 arg7 harg7 hc0 x0 x1 x2 = k0_pay4 (qtile i x0) (k0_pay1 x0 x1 x2) x0 := by
  unfold out0_A_3
  rw [View.read_writes_eq_canon _ _ _ (cover0_A_3 c i arg2 harg2 arg3 harg3 arg4 harg4 arg5 harg5 arg6 harg6 arg7 harg7 hc0 x0 x1 x2)]
  unfold kernelRun0_A
  dsimp only
  sl_unfold_words
  rw [View.canon_unit_zero zeros3, View.readCov_unit_zero (S := S2048x1024) _ zeros2]
  simp only [View.readAt_eq_ld, harg2.read_unread, harg3.read_unread, harg4.read_unread,
    View.ld_unit_zero (S := S1x2048x1024) zeros3, View.ld_unit_zero (S := S1024x1024) zeros2, View.ld_unit_zero (S := S1x1024) zeros2]
  rfl

/-- A later tile: the attention block comes from the query tile and the scratch as the previous tile left it. -/
theorem attn_later (c : Dev nD) (i : grid0.Coords) (arg2 : Memref sig .tc .vmem S1x2048x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x256x1024 .f32) (harg5 : arg5.IsWhole) (arg6 : Memref sig .tc .vmem S1x256x2048 .f32) (harg6 : arg6.IsWhole) (arg7 : Memref sig .tc .vmem S2048x1024 .bf16) (harg7 : arg7.IsWhole) (hc0 : ¬cond0_0 i)
    (x0 : Vec F S1x2048x1024 .bf16) (x1 : Vec F S1024x1024 .bf16) (x2 : Vec F S1x1024 .f32) (xs0 : Vec F S2048x1024 .bf16) :
    out0_B_4 c i arg2 harg2 arg3 harg3 arg4 harg4 arg5 harg5 arg6 harg6 arg7 harg7 hc0 x0 x1 x2 xs0 = k0_pay3 (qtile i x0) xs0 := by
  unfold out0_B_4
  rw [View.read_writes_eq_canon _ _ _ (cover0_B_4 c i arg2 harg2 arg3 harg3 arg4 harg4 arg5 harg5 arg6 harg6 arg7 harg7 hc0 x0 x1 x2 xs0)]
  unfold kernelRun0_B
  dsimp only
  rw [View.canon_unit_zero zeros3]
  simp only [View.readAt_eq_ld, harg2.read_unread, harg7.read_unread,
    View.ld_unit_zero (S := S1x2048x1024) zeros3, View.ld_unit_zero (S := S2048x1024) zeros2]
  rfl

/-- A later tile: the context block likewise, times the batch's block. -/
theorem ctx_later (c : Dev nD) (i : grid0.Coords) (arg2 : Memref sig .tc .vmem S1x2048x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x256x1024 .f32) (harg5 : arg5.IsWhole) (arg6 : Memref sig .tc .vmem S1x256x2048 .f32) (harg6 : arg6.IsWhole) (arg7 : Memref sig .tc .vmem S2048x1024 .bf16) (harg7 : arg7.IsWhole) (hc0 : ¬cond0_0 i)
    (x0 : Vec F S1x2048x1024 .bf16) (x1 : Vec F S1024x1024 .bf16) (x2 : Vec F S1x1024 .f32) (xs0 : Vec F S2048x1024 .bf16) :
    out0_B_3 c i arg2 harg2 arg3 harg3 arg4 harg4 arg5 harg5 arg6 harg6 arg7 harg7 hc0 x0 x1 x2 xs0 = k0_pay4 (qtile i x0) xs0 x0 := by
  unfold out0_B_3
  rw [View.read_writes_eq_canon _ _ _ (cover0_B_3 c i arg2 harg2 arg3 harg3 arg4 harg4 arg5 harg5 arg6 harg6 arg7 harg7 hc0 x0 x1 x2 xs0)]
  unfold kernelRun0_B
  dsimp only
  rw [View.canon_unit_zero zeros3]
  simp only [View.readAt_eq_ld, harg2.read_unread, harg7.read_unread,
    View.ld_unit_zero (S := S1x2048x1024) zeros3, View.ld_unit_zero (S := S2048x1024) zeros2]
  rfl

end Cert.KernelIdeal.Body

end
-- ==== Proof.PointValues.lean ====
/-
  What one grid point computes, over the extended reals, stated over plain variables: given that the batch block holds
  batch `b`'s rows, and that the scratch holds the batch's projected rows, the point with tile number `q` produces
  rows `256·q … 256·q + 255` of batch `b`'s attention weights and context vectors; and the first point of a batch
  produces the batch's projected rows from the blocks of the three arguments.
-/
import proofs.«138561_j14353780703904_2_alg».proof.Proof.Payload
import proofs.«138561_j14353780703904_2_alg».proof.Proof.Pieces

noncomputable section

namespace Cert.KernelIdeal.Body

open Cert.KernelIdeal Cert.KernelIdeal.Gen Idealize.ShloMosaic Idealize.ShloMosaic.ValueIdx Cert.Attn

/-- The query tile read at (row within the tile, feature): row `256 · tile + r` of the block. -/
theorem qtile_apply (i : grid0.Coords) (x0 : FVec Ideal S1x2048x1024 .bf16) (u : Fin 1) (r : Fin 256) (d : Fin 1024)
    (row : Fin 2048) (hrow : row.val = 256 * (i 1).val + r.val) :
    qtile (F := Ideal) i x0 (ix3 u r d) = x0 (ix3 (0 : Fin 1) row d) := by
  unfold qtile
  show x0 ((Rect.unit (s := S1x2048x1024) (k0_off1 i) S1x256x1024.size (k0_off1_inb i)).idx (ix3 u r d)) = _
  refine congrArg x0 (funext fun a => Fin.ext ?_)
  have ho := k0_off1_eq i
  match a with
  | ⟨0, _⟩ =>
    show k0_off1 i 0 + 1 * u.val = 0
    rw [ho]; show 0 + 1 * u.val = 0; omega
  | ⟨1, _⟩ =>
    show k0_off1 i 1 + 1 * r.val = row.val
    rw [ho, hrow]; show 256 * (i 1).val + 1 * r.val = _; omega
  | ⟨2, _⟩ =>
    show k0_off1 i 2 + 1 * d.val = d.val
    rw [ho]; show 0 + 1 * d.val = d.val; omega

section Point

variable (X : Fin 8 → Fin 2048 → Fin 1024 → EReal) (W : Fin 1024 → Fin 1024 → EReal) (B : Fin 1024 → EReal)
variable (b : Fin 8)

/-- The projection a batch's first point stores: the batch's projected rows. -/
theorem proj_point (x0 : FVec Ideal S1x2048x1024 .bf16) (x1 : FVec Ideal S1024x1024 .bf16) (x2 : FVec Ideal S1x1024 .f32)
    (hx : ∀ (u : Fin 1) (s : Fin 2048) (d : Fin 1024), x0 (ix3 u s d) = X b s d)
    (hw : ∀ (e d : Fin 1024), x1 (ix2 e d) = W e d) (hb : ∀ (u : Fin 1) (e : Fin 1024), x2 (ix2 u e) = B e)
    (s : Fin 2048) (e : Fin 1024) :
    k0_pay1 (F := Ideal) x0 x1 x2 (ix2 s e) = proj X W B b s e := by
  rw [proj_payload]
  unfold proj
  rw [hb]
  exact congrArg (· + B e) (Finset.sum_congr rfl fun d _ => by rw [hx, hw])

/-- The attention block of one point. -/
theorem attn_point (i : grid0.Coords) (x0 : FVec Ideal S1x2048x1024 .bf16) (xs : FVec Ideal S2048x1024 .bf16)
    (hx : ∀ (u : Fin 1) (s : Fin 2048) (d : Fin 1024), x0 (ix3 u s d) = X b s d)
    (hs : ∀ (s : Fin 2048) (e : Fin 1024), xs (ix2 s e) = proj X W B b s e)
    (u : Fin 1) (r : Fin 256) (j : Fin 2048) (row : Fin 2048) (hrow : row.val = 256 * (i 1).val + r.val) :
    k0_pay3 (F := Ideal) (qtile (F := Ideal) i x0) xs (ix3 u r j) = attn X W B b row j := by
  rw [attn_payload]
  unfold attn
  refine congrArg (fun f => softmaxRow f j) ?_
  have hq : (fun d => qtile (F := Ideal) i x0 (ix3 (0 : Fin 1) r d)) = X b row :=
    funext fun d => by rw [qtile_apply i x0 0 r d row hrow, hx]
  have hk : (fun (k : Fin 2048) (d : Fin 1024) => xs (ix2 k d)) = proj X W B b :=
    funext fun k => funext fun d => hs k d
  rw [hq, hk]

/-- The context block of one point. -/
theorem ctx_point (i : grid0.Coords) (x0 : FVec Ideal S1x2048x1024 .bf16) (xs : FVec Ideal S2048x1024 .bf16)
    (hx : ∀ (u : Fin 1) (s : Fin 2048) (d : Fin 1024), x0 (ix3 u s d) = X b s d)
    (hs : ∀ (s : Fin 2048) (e : Fin 1024), xs (ix2 s e) = proj X W B b s e)
    (u : Fin 1) (r : Fin 256) (d : Fin 1024) (row : Fin 2048) (hrow : row.val = 256 * (i 1).val + r.val) :
    k0_pay4 (F := Ideal) (qtile (F := Ideal) i x0) xs x0 (ix3 u r d) = ctx X W B b row d := by
  rw [ctx_payload]
  unfold ctx attn
  refine Finset.sum_congr rfl fun j _ => ?_
  have hq : (fun d => qtile (F := Ideal) i x0 (ix3 (0 : Fin 1) r d)) = X b row :=
    funext fun d => by rw [qtile_apply i x0 0 r d row hrow, hx]
  have hk : (fun (k : Fin 2048) (d : Fin 1024) => xs (ix2 k d)) = proj X W B b :=
    funext fun k => funext fun d => hs k d
  rw [hq, hk, hx]

end Point

end Cert.KernelIdeal.Body

end
-- ==== Proof.PointRun.lean ====
/-
  The run point by point. The scratch the kernel carries from one grid point to the next holds, after every point, the
  projected rows of that point's batch: a batch's first tile writes them, and the seven later tiles of the batch leave
  the scratch as they found it (by induction along the grid, not by enumerating it). Hence every point — first tile
  or later — writes back rows `256·(t % 8) … + 255` of batch `t / 8`'s attention weights and context vectors.
-/
import proofs.«138561_j14353780703904_2_alg».proof.Proof.Gen.KernelIdeal.Value
import proofs.«138561_j14353780703904_2_alg».proof.Proof.Blocks
import proofs.«138561_j14353780703904_2_alg».proof.Proof.PointValues

noncomputable section

namespace Cert.KernelIdeal.Body

open Cert.KernelIdeal Cert.KernelIdeal.Gen Idealize.ShloMosaic Idealize.ShloMosaic.TcCoe Idealize.SL.Sem
open Idealize.ShloMosaic.ValueIdx Cert.Attn

variable (m : (ℓ : Loc nD τ sig) → Buf (Elt Ideal) ℓ) (c : Dev nD)

/-- The three arguments read by coordinates. -/
abbrev argX : Fin 8 → Fin 2048 → Fin 1024 → EReal := rows (m ((c : Thread nD τ).loc main_arg0))
abbrev argW : Fin 1024 → Fin 1024 → EReal := weights (m ((c : Thread nD τ).loc main_arg1))
abbrev argB : Fin 1024 → EReal := biases (m ((c : Thread nD τ).loc main_arg2))

/-! ## What the cases leave, at a point of the run -/

theorem scratch_at_first (t : Fin cfg0.N) (h0 : t.val % 8 = 0) :
    (outsAt0 m c t.val t.isLt).2.2 = k0_pay1 (F := Ideal) (iblk m c 0 t) (iblk m c 1 t) (iblk m c 2 t) := by
  rw [outsAt0_A m c t h0]
  dsimp only
  exact scratch_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) ((hcond0_0 t).mpr h0) (iblk m c 0 t) (iblk m c 1 t) (iblk m c 2 t)

theorem scratch_at_later (t : Fin cfg0.N) (h0 : ¬t.val % 8 = 0) :
    (outsAt0 m c t.val t.isLt).2.2 = (outsAt0 m c (t.val - 1) (Nat.lt_of_le_of_lt (Nat.sub_le _ _) t.isLt)).2.2 := by
  rw [outsAt0_B m c t h0]
  dsimp only
  unfold sout0_B_0
  rfl

theorem attn_at_first (t : Fin cfg0.N) (h0 : t.val % 8 = 0) :
    (outsAt0 m c t.val t.isLt).2.1 = k0_pay3 (F := Ideal) (qtile (F := Ideal) (grid0.coords t) (iblk m c 0 t)) (k0_pay1 (F := Ideal) (iblk m c 0 t) (iblk m c 1 t) (iblk m c 2 t)) := by
  rw [outsAt0_A m c t h0]
  dsimp only
  exact attn_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) ((hcond0_0 t).mpr h0) (iblk m c 0 t) (iblk m c 1 t) (iblk m c 2 t)

theorem attn_at_later (t : Fin cfg0.N) (h0 : ¬t.val % 8 = 0) :
    (outsAt0 m c t.val t.isLt).2.1 = k0_pay3 (F := Ideal) (qtile (F := Ideal) (grid0.coords t) (iblk m c 0 t)) (outsAt0 m c (t.val - 1) (Nat.lt_of_le_of_lt (Nat.sub_le _ _) t.isLt)).2.2 := by
  rw [outsAt0_B m c t h0]
  dsimp only
  exact attn_later (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) (fun h => h0 ((hcond0_0 t).mp h)) (iblk m c 0 t) (iblk m c 1 t) (iblk m c 2 t) (outsAt0 m c (t.val - 1) (Nat.lt_of_le_of_lt (Nat.sub_le _ _) t.isLt)).2.2

theorem ctx_at_first (t : Fin cfg0.N) (h0 : t.val % 8 = 0) :
    (outsAt0 m c t.val t.isLt).1 = k0_pay4 (F := Ideal) (qtile (F := Ideal) (grid0.coords t) (iblk m c 0 t)) (k0_pay1 (F := Ideal) (iblk m c 0 t) (iblk m c 1 t) (iblk m c 2 t)) (iblk m c 0 t) := by
  rw [outsAt0_A m c t h0]
  dsimp only
  exact ctx_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) ((hcond0_0 t).mpr h0) (iblk m c 0 t) (iblk m c 1 t) (iblk m c 2 t)

theorem ctx_at_later (t : Fin cfg0.N) (h0 : ¬t.val % 8 = 0) :
    (outsAt0 m c t.val t.isLt).1 = k0_pay4 (F := Ideal) (qtile (F := Ideal) (grid0.coords t) (iblk m c 0 t)) (outsAt0 m c (t.val - 1) (Nat.lt_of_le_of_lt (Nat.sub_le _ _) t.isLt)).2.2 (iblk m c 0 t) := by
  rw [outsAt0_B m c t h0]
  dsimp only
  exact ctx_later (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) (fun h => h0 ((hcond0_0 t).mp h)) (iblk m c 0 t) (iblk m c 1 t) (iblk m c 2 t) (outsAt0 m c (t.val - 1) (Nat.lt_of_le_of_lt (Nat.sub_le _ _) t.isLt)).2.2

/-! ## The carried scratch -/

/-- What a batch's first tile stores: the batch's projected rows. -/
theorem proj_first (t : Fin cfg0.N) (s : Fin 2048) (e : Fin 1024) :
    k0_pay1 (F := Ideal) (iblk m c 0 t) (iblk m c 1 t) (iblk m c 2 t) (ix2 s e)
      = proj (argX m c) (argW m c) (argB m c) (batchOf t) s e :=
  proj_point (argX m c) (argW m c) (argB m c) (batchOf t) (iblk m c 0 t) (iblk m c 1 t) (iblk m c 2 t)
    (rows_block m c t) (weights_block m c t) (bias_block m c t) s e

/-- After every point the scratch holds the projected rows of the point's batch. -/
theorem scratch_inv : ∀ (n : ℕ) (h : n < cfg0.N) (s : Fin 2048) (e : Fin 1024),
    (outsAt0 m c n h).2.2 (ix2 s e) = proj (argX m c) (argW m c) (argB m c) (batchOf ⟨n, h⟩) s e := by
  intro n
  induction n with
  | zero =>
    intro h s e
    exact (congrFun (scratch_at_first m c ⟨0, h⟩ rfl) (ix2 s e)).trans (proj_first m c ⟨0, h⟩ s e)
  | succ n ih =>
    intro h s e
    by_cases h0 : (n + 1) % 8 = 0
    · exact (congrFun (scratch_at_first m c ⟨n + 1, h⟩ h0) (ix2 s e)).trans (proj_first m c ⟨n + 1, h⟩ s e)
    · refine (congrFun (scratch_at_later m c ⟨n + 1, h⟩ h0) (ix2 s e)).trans ?_
      have hb : batchOf ⟨n + 1, h⟩ = batchOf ⟨n, Nat.lt_of_succ_lt h⟩ :=
        Fin.ext (by show (n + 1) / 8 = n / 8; omega)
      rw [hb]
      exact ih (Nat.lt_of_succ_lt h) s e

/-- So the scratch a later tile reads is its own batch's projected rows. -/
theorem scratch_before (t : Fin cfg0.N) (h0 : ¬t.val % 8 = 0) (s : Fin 2048) (e : Fin 1024) :
    (outsAt0 m c (t.val - 1) (Nat.lt_of_le_of_lt (Nat.sub_le _ _) t.isLt)).2.2 (ix2 s e) = proj (argX m c) (argW m c) (argB m c) (batchOf t) s e :=
  (congrFun (scratch_at_later m c t h0).symm (ix2 s e)).trans (scratch_inv m c t.val t.isLt s e)

/-! ## What every point writes back -/

/-- The attention block after point `t`, at (row within the tile, key row). -/
theorem attn_after (t : Fin cfg0.N) (u : Fin 1) (r : Fin 256) (j : Fin 2048) (row : Fin 2048)
    (hrow : row.val = 256 * (t.val % 8) + r.val) :
    (outsAt0 m c t.val t.isLt).2.1 (ix3 u r j) = attn (argX m c) (argW m c) (argB m c) (batchOf t) row j := by
  have hq : row.val = 256 * (grid0.coords t 1).val + r.val := by rw [(coords_facts t).2]; exact hrow
  by_cases h0 : t.val % 8 = 0
  · exact (congrFun (attn_at_first m c t h0) (ix3 u r j)).trans
      (attn_point (argX m c) (argW m c) (argB m c) (batchOf t) (grid0.coords t) (iblk m c 0 t)
        (k0_pay1 (F := Ideal) (iblk m c 0 t) (iblk m c 1 t) (iblk m c 2 t)) (rows_block m c t) (proj_first m c t) u r j row hq)
  · exact (congrFun (attn_at_later m c t h0) (ix3 u r j)).trans
      (attn_point (argX m c) (argW m c) (argB m c) (batchOf t) (grid0.coords t) (iblk m c 0 t)
        (outsAt0 m c (t.val - 1) (Nat.lt_of_le_of_lt (Nat.sub_le _ _) t.isLt)).2.2 (rows_block m c t) (scratch_before m c t h0) u r j row hq)

/-- The context block after point `t`, at (row within the tile, feature). -/
theorem ctx_after (t : Fin cfg0.N) (u : Fin 1) (r : Fin 256) (d : Fin 1024) (row : Fin 2048)
    (hrow : row.val = 256 * (t.val % 8) + r.val) :
    (outsAt0 m c t.val t.isLt).1 (ix3 u r d) = ctx (argX m c) (argW m c) (argB m c) (batchOf t) row d := by
  have hq : row.val = 256 * (grid0.coords t 1).val + r.val := by rw [(coords_facts t).2]; exact hrow
  by_cases h0 : t.val % 8 = 0
  · exact (congrFun (ctx_at_first m c t h0) (ix3 u r d)).trans
      (ctx_point (argX m c) (argW m c) (argB m c) (batchOf t) (grid0.coords t) (iblk m c 0 t)
        (k0_pay1 (F := Ideal) (iblk m c 0 t) (iblk m c 1 t) (iblk m c 2 t)) (rows_block m c t) (proj_first m c t) u r d row hq)
  · exact (congrFun (ctx_at_later m c t h0) (ix3 u r d)).trans
      (ctx_point (argX m c) (argW m c) (argB m c) (batchOf t) (grid0.coords t) (iblk m c 0 t)
        (outsAt0 m c (t.val - 1) (Nat.lt_of_le_of_lt (Nat.sub_le _ _) t.isLt)).2.2 (rows_block m c t) (scratch_before m c t h0) u r d row hq)

end Cert.KernelIdeal.Body

end
-- ==== Proof.Arrays.lean ====
/-
  From blocks to arrays. Point `t` writes back the block at (batch `t / 8`, tile `t % 8`) of each result, and
  that block is the matching block of the specification's array; the 64 blocks tile each result array (the point
  covering (batch `b`, row `i`) is `8·b + i / 256`), so after the run both result arrays are the specification's.
-/
import proofs.«138561_j14353780703904_2_alg».proof.Proof.PointRun

noncomputable section

namespace Cert.KernelIdeal.Result

open Cert.KernelIdeal Cert.KernelIdeal.Gen Cert.KernelIdeal.Body Idealize.ShloMosaic Idealize.ShloMosaic.TcCoe Idealize.SL.Sem
open Idealize.ShloMosaic.ValueIdx Cert.Attn
open Idealize.ShloMosaic.Pipeline (Dat)

variable (m : (ℓ : Loc nD τ sig) → Buf (Elt Ideal) ℓ) (ρ : Dev nD → PrngReg)

/-- The specification's two arrays of the kernel's three arguments. -/
abbrev attnOf (c : Dev nD) : S8x2048x2048.Idx → EReal :=
  attnArr (m ((c : Thread nD τ).loc main_arg0)) (m ((c : Thread nD τ).loc main_arg1)) (m ((c : Thread nD τ).loc main_arg2))
abbrev ctxOf (c : Dev nD) : S8x2048x1024.Idx → EReal :=
  ctxArr (m ((c : Thread nD τ).loc main_arg0)) (m ((c : Thread nD τ).loc main_arg1)) (m ((c : Thread nD τ).loc main_arg2))

/-! ## The context vectors (output window 3) -/

/-- An index of the context array is in point `t`'s block iff each coordinate is in the block's range on its axis. -/
theorem mem_blk3 (t : Fin cfg0.N) (i : S8x2048x1024.Idx) :
    i ∈ ((cfg0.win 3).blk t).view.set ↔ ∀ a : Fin 3, win0_3.index t a * S1x256x1024.size a ≤ (i a).val ∧ (i a).val < win0_3.index t a * S1x256x1024.size a + S1x256x1024.size a := by
  show i ∈ ((View.whole main_v3_0).slice (win0_3.rect t)).set ↔ _
  rw [View.set_slice_whole, Rect.mem_set_unit]
  exact Iff.rfl

/-- What point `t` writes back is block `t` of the context array of the specification. -/
theorem flushed3_eq (c : Dev nD) (t : Fin cfg0.N) :
    (dats m 0 c).flushed 3 t = ((cfg0.win 3).blk t).view.read (Elt Ideal) (ctxOf m c) := by
  rw [Value.flushed3]
  refine funext fun (y : S1x256x1024.Idx) => ?_
  obtain ⟨u, r, j, rfl⟩ : ∃ (u : Fin 1) (r : Fin 256) (j : Fin 1024), y = ix3 u r j := ⟨y 0, y 1, y 2, eq_ix3 y⟩
  have hN : cfg0.N = 64 := N_0
  have ht := t.isLt
  have hr := r.isLt
  obtain ⟨o0, o1, o2, p0, p1, p2⟩ := out_facts t
  show (outsAt0 m c t.val t.isLt).1 (ix3 u r j) = ctxOf m c (((cfg0.win 3).blk t).view.emb (ix3 u r j))
  rw [ctx_after m c t u r j ⟨256 * (t.val % 8) + r.val, by omega⟩ rfl]
  have i0 : ((cfg0.win 3).blk t).view.emb (ix3 u r j) 0 = batchOf t :=
    Fin.ext (by show win0_3.index t (0 : Fin 3) * 1 + 1 * u.val = t.val / 8; omega)
  have i1 : ((cfg0.win 3).blk t).view.emb (ix3 u r j) 1 = (⟨256 * (t.val % 8) + r.val, by omega⟩ : Fin 2048) :=
    Fin.ext (by show win0_3.index t (1 : Fin 3) * 256 + 1 * r.val = 256 * (t.val % 8) + r.val; omega)
  have i2 : ((cfg0.win 3).blk t).view.emb (ix3 u r j) 2 = j :=
    Fin.ext (by show win0_3.index t (2 : Fin 3) * 1024 + 1 * j.val = j.val; omega)
  show _ = ctx (argX m c) (argW m c) (argB m c) (((cfg0.win 3).blk t).view.emb (ix3 u r j) 0)
    (((cfg0.win 3).blk t).view.emb (ix3 u r j) 1) (((cfg0.win 3).blk t).view.emb (ix3 u r j) 2)
  rw [i0, i1, i2]

/-- Every index of the context array is in the block of the point (its batch, its row's tile). -/
theorem cover3 (i : S8x2048x1024.Idx) : ∃ t : Fin cfg0.N, (cfg0.win 3).flush t = true ∧ i ∈ ((cfg0.win 3).blk t).view.set := by
  have hN : cfg0.N = 64 := N_0
  have h0 : (i 0).val < 8 := (i 0).isLt
  have h1 : (i 1).val < 2048 := (i 1).isLt
  have h2 : (i 2).val < 1024 := (i 2).isLt
  have hlt : 8 * (i 0).val + (i 1).val / 256 < cfg0.N := by omega
  refine ⟨⟨8 * (i 0).val + (i 1).val / 256, hlt⟩, flush0_3 _, ?_⟩
  rw [mem_blk3]
  obtain ⟨o0, o1, o2, p0, p1, p2⟩ := out_facts ⟨8 * (i 0).val + (i 1).val / 256, hlt⟩
  have q0 : win0_3.index ⟨8 * (i 0).val + (i 1).val / 256, hlt⟩ (0 : Fin 3) = (8 * (i 0).val + (i 1).val / 256) / 8 := o0
  have q1 : win0_3.index ⟨8 * (i 0).val + (i 1).val / 256, hlt⟩ (1 : Fin 3) = (8 * (i 0).val + (i 1).val / 256) % 8 := o1
  have q2 : win0_3.index ⟨8 * (i 0).val + (i 1).val / 256, hlt⟩ (2 : Fin 3) = 0 := o2
  intro a
  match a with
  | ⟨0, _⟩ =>
    show win0_3.index ⟨8 * (i 0).val + (i 1).val / 256, hlt⟩ (0 : Fin 3) * 1 ≤ (i 0).val
      ∧ (i 0).val < win0_3.index ⟨8 * (i 0).val + (i 1).val / 256, hlt⟩ (0 : Fin 3) * 1 + 1
    omega
  | ⟨1, _⟩ =>
    show win0_3.index ⟨8 * (i 0).val + (i 1).val / 256, hlt⟩ (1 : Fin 3) * 256 ≤ (i 1).val
      ∧ (i 1).val < win0_3.index ⟨8 * (i 0).val + (i 1).val / 256, hlt⟩ (1 : Fin 3) * 256 + 256
    omega
  | ⟨2, _⟩ =>
    show win0_3.index ⟨8 * (i 0).val + (i 1).val / 256, hlt⟩ (2 : Fin 3) * 1024 ≤ (i 2).val
      ∧ (i 2).val < win0_3.index ⟨8 * (i 0).val + (i 1).val / 256, hlt⟩ (2 : Fin 3) * 1024 + 1024
    omega

/-- So after the run the context array is the specification's. -/
theorem final3 (c : Dev nD) : (dats m 0 c).arrAt 3 cfg0.N = ctxOf m c :=
  (dats m 0 c).arrAt_eq_of_cover 3 (ctxOf m c) (fun t _ => flushed3_eq m c t) cover3

/-! ## The attention weights (output window 4) -/

/-- An index of the attention array is in point `t`'s block iff each coordinate is in the block's range on its axis. -/
theorem mem_blk4 (t : Fin cfg0.N) (i : S8x2048x2048.Idx) :
    i ∈ ((cfg0.win 4).blk t).view.set ↔ ∀ a : Fin 3, win0_4.index t a * S1x256x2048.size a ≤ (i a).val ∧ (i a).val < win0_4.index t a * S1x256x2048.size a + S1x256x2048.size a := by
  show i ∈ ((View.whole main_v3_1).slice (win0_4.rect t)).set ↔ _
  rw [View.set_slice_whole, Rect.mem_set_unit]
  exact Iff.rfl

/-- What point `t` writes back is block `t` of the attention array of the specification. -/
theorem flushed4_eq (c : Dev nD) (t : Fin cfg0.N) :
    (dats m 0 c).flushed 4 t = ((cfg0.win 4).blk t).view.read (Elt Ideal) (attnOf m c) := by
  rw [Value.flushed4]
  refine funext fun (y : S1x256x2048.Idx) => ?_
  obtain ⟨u, r, j, rfl⟩ : ∃ (u : Fin 1) (r : Fin 256) (j : Fin 2048), y = ix3 u r j := ⟨y 0, y 1, y 2, eq_ix3 y⟩
  have hN : cfg0.N = 64 := N_0
  have ht := t.isLt
  have hr := r.isLt
  obtain ⟨o0, o1, o2, p0, p1, p2⟩ := out_facts t
  show (outsAt0 m c t.val t.isLt).2.1 (ix3 u r j) = attnOf m c (((cfg0.win 4).blk t).view.emb (ix3 u r j))
  rw [attn_after m c t u r j ⟨256 * (t.val % 8) + r.val, by omega⟩ rfl]
  have i0 : ((cfg0.win 4).blk t).view.emb (ix3 u r j) 0 = batchOf t :=
    Fin.ext (by show win0_4.index t (0 : Fin 3) * 1 + 1 * u.val = t.val / 8; omega)
  have i1 : ((cfg0.win 4).blk t).view.emb (ix3 u r j) 1 = (⟨256 * (t.val % 8) + r.val, by omega⟩ : Fin 2048) :=
    Fin.ext (by show win0_4.index t (1 : Fin 3) * 256 + 1 * r.val = 256 * (t.val % 8) + r.val; omega)
  have i2 : ((cfg0.win 4).blk t).view.emb (ix3 u r j) 2 = j :=
    Fin.ext (by show win0_4.index t (2 : Fin 3) * 2048 + 1 * j.val = j.val; omega)
  show _ = attn (argX m c) (argW m c) (argB m c) (((cfg0.win 4).blk t).view.emb (ix3 u r j) 0)
    (((cfg0.win 4).blk t).view.emb (ix3 u r j) 1) (((cfg0.win 4).blk t).view.emb (ix3 u r j) 2)
  rw [i0, i1, i2]

/-- Every index of the attention array is in the block of the point (its batch, its row's tile). -/
theorem cover4 (i : S8x2048x2048.Idx) : ∃ t : Fin cfg0.N, (cfg0.win 4).flush t = true ∧ i ∈ ((cfg0.win 4).blk t).view.set := by
  have hN : cfg0.N = 64 := N_0
  have h0 : (i 0).val < 8 := (i 0).isLt
  have h1 : (i 1).val < 2048 := (i 1).isLt
  have h2 : (i 2).val < 2048 := (i 2).isLt
  have hlt : 8 * (i 0).val + (i 1).val / 256 < cfg0.N := by omega
  refine ⟨⟨8 * (i 0).val + (i 1).val / 256, hlt⟩, flush0_4 _, ?_⟩
  rw [mem_blk4]
  obtain ⟨o0, o1, o2, p0, p1, p2⟩ := out_facts ⟨8 * (i 0).val + (i 1).val / 256, hlt⟩
  have q0 : win0_4.index ⟨8 * (i 0).val + (i 1).val / 256, hlt⟩ (0 : Fin 3) = (8 * (i 0).val + (i 1).val / 256) / 8 := p0
  have q1 : win0_4.index ⟨8 * (i 0).val + (i 1).val / 256, hlt⟩ (1 : Fin 3) = (8 * (i 0).val + (i 1).val / 256) % 8 := p1
  have q2 : win0_4.index ⟨8 * (i 0).val + (i 1).val / 256, hlt⟩ (2 : Fin 3) = 0 := p2
  intro a
  match a with
  | ⟨0, _⟩ =>
    show win0_4.index ⟨8 * (i 0).val + (i 1).val / 256, hlt⟩ (0 : Fin 3) * 1 ≤ (i 0).val
      ∧ (i 0).val < win0_4.index ⟨8 * (i 0).val + (i 1).val / 256, hlt⟩ (0 : Fin 3) * 1 + 1
    omega
  | ⟨1, _⟩ =>
    show win0_4.index ⟨8 * (i 0).val + (i 1).val / 256, hlt⟩ (1 : Fin 3) * 256 ≤ (i 1).val
      ∧ (i 1).val < win0_4.index ⟨8 * (i 0).val + (i 1).val / 256, hlt⟩ (1 : Fin 3) * 256 + 256
    omega
  | ⟨2, _⟩ =>
    show win0_4.index ⟨8 * (i 0).val + (i 1).val / 256, hlt⟩ (2 : Fin 3) * 2048 ≤ (i 2).val
      ∧ (i 2).val < win0_4.index ⟨8 * (i 0).val + (i 1).val / 256, hlt⟩ (2 : Fin 3) * 2048 + 2048
    omega

/-- So after the run the attention array is the specification's. -/
theorem final4 (c : Dev nD) : (dats m 0 c).arrAt 4 cfg0.N = attnOf m c :=
  (dats m 0 c).arrAt_eq_of_cover 4 (attnOf m c) (fun t _ => flushed4_eq m c t) cover4

/-! ## The run, read -/

/-- Every weakly fair execution of the idealized kernel terminates with both results at the specification's arrays of
    the arguments, and the arguments unchanged. -/
theorem run : θ_run defs (onTc (τ := τ) (main (F := Ideal))) ⟨m, fun _ => 0, ρ⟩ fun r => ∀ c : Dev nD,
      r.2.mem ((c : Thread nD τ).loc main_v3_0) = ctxOf m c
      ∧ r.2.mem ((c : Thread nD τ).loc main_v3_1) = attnOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2.1.trans (final4 m c), (h c).2.2⟩)
    (Value.run_blocks m ρ)

end Cert.KernelIdeal.Result

end
-- ==== Proof.lean ====
/- A fused self-attention kernel against its reference, over the extended reals.

   Both programs take rows `x : [8, 2048, 1024]`, weights `W : [1024, 1024]` and a bias `b : [1024]`, and return, per batch,
     attn = softmax over keys of  x · (x · Wᵀ + b)ᵀ      and      ctx = attn · x.
   The reference computes them with whole-array contractions and reductions. The kernel walks a grid of 8 batches by
   8 query tiles of 256 rows: at a batch's first tile it computes the batch's projected rows `x · Wᵀ + b` once into a
   scratch that it carries across the batch's remaining tiles, and at every tile it scores the tile's 256 query rows against
   all 2048 projected rows, takes the row-wise softmax, stores it, and stores its product with the batch's rows.

   The two sides are the same formulas term by term (Proof/Spec.lean): every contraction is the same finite sum over the
   same index, the two row maxima are the same fold of `max` from −∞ (the reference joins the result with −∞ once more,
   which changes nothing), the row sums differ only by a leading `0 +`, and the kernel's changes of float format are the
   identity on the extended reals. No step uses cancellation or distributivity, so finiteness of the inputs is not used.

   Proof/RefStages.lean reads the reference stage by stage as the specification; Proof/Payload.lean reads the kernel body's
   arithmetic at an index; Proof/Pieces.lean and Proof/PointValues.lean say what one grid point leaves in the scratch and in
   the two output blocks; Proof/Blocks.lean places the input blocks; Proof/PointRun.lean carries the scratch's contents along
   the grid by induction; Proof/Arrays.lean tiles the result arrays by the 64 written blocks. No operation of the kernel
   is replaced on the way to its reading over the extended reals: that reading is the kernel's own text. -/
import proofs.«138561_j14353780703904_2_alg».proof.Defs
import proofs.«138561_j14353780703904_2_alg».proof.Proof.Gen.Kernel
import proofs.«138561_j14353780703904_2_alg».proof.Proof.Gen.Kernel.Skeleton
import proofs.«138561_j14353780703904_2_alg».proof.Proof.Gen.Kernel.Launch
import proofs.«138561_j14353780703904_2_alg».proof.Proof.Gen.Kernel.Points
import proofs.«138561_j14353780703904_2_alg».proof.Proof.Gen.Kernel.Frame
import proofs.«138561_j14353780703904_2_alg».proof.Proof.Gen.KernelIdeal
import proofs.«138561_j14353780703904_2_alg».proof.Proof.Gen.KernelIdeal.Skeleton
import proofs.«138561_j14353780703904_2_alg».proof.Proof.Gen.KernelIdeal.Launch
import proofs.«138561_j14353780703904_2_alg».proof.Proof.Gen.KernelIdeal.Points
import proofs.«138561_j14353780703904_2_alg».proof.Proof.Gen.KernelIdeal.Frame
import proofs.«138561_j14353780703904_2_alg».proof.Proof.Gen.ReferenceIdeal
import proofs.«138561_j14353780703904_2_alg».proof.Proof.Gen.Pre_finite_inputs
import proofs.«138561_j14353780703904_2_alg».proof.Proof.Gen.KernelIdeal.Value
import proofs.«138561_j14353780703904_2_alg».proof.Proof.Gen.ReferenceIdeal.Run
import proofs.«138561_j14353780703904_2_alg».proof.Proof.Gen.ReferenceIdeal.Read
import proofs.«138561_j14353780703904_2_alg».proof.Proof.RefStages
import proofs.«138561_j14353780703904_2_alg».proof.Proof.Arrays
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is a straight line of host operations: its run with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- No operation is replaced between the kernel and its reading over the extended reals: there is nothing to preserve. -/
theorem preserves : Cert.preserves_Kernel_KernelIdeal := trivial

/-- From arguments that agree, both programs end with the specification's context vectors and attention weights. -/
theorem algebraic : Cert.algebraic_KernelIdeal_ReferenceIdeal := by
  intro m ρ m' ρ' _ hagree
  refine ⟨fun c => Cert.KernelIdeal.Result.ctxOf m c, fun c => Cert.KernelIdeal.Result.attnOf m c,
    Cert.KernelIdeal.Result.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v16_eq, Cert.ReferenceIdeal.RefValue.ctx_result,
      (hagree c).1, (hagree c).2.1, (hagree c).2.2]
  · rw [(h c).2.1, Cert.ReferenceIdeal.Read.val_main_v15_eq, Cert.ReferenceIdeal.RefValue.attn_result,
      (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
